-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S1024x2048 .f32
  ∧ IdealRules.sign_bit.Statement Cert.KernelIdeal.S1024x16 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x8 : Shape := ⟨2, ![131072, 8]⟩
abbrev S8x2048 : Shape := ⟨2, ![8, 2048]⟩
abbrev S2048x16 : Shape := ⟨2, ![2048, 16]⟩
abbrev S_ : Shape := ⟨0, ![]⟩

class Facts : Prop where
  bcast_S_S131072x8 : S_.BroadcastsInDim S131072x8 (![] : Fin 0 → Fin S131072x8.rank)
  reducesTo_S131072x8_S_d0_1 : S131072x8.ReducesTo [0, 1] S_
  h_S_ : 0 < S_.numel
  bcast_S_S8x2048 : S_.BroadcastsInDim S8x2048 (![] : Fin 0 → Fin S8x2048.rank)
  reducesTo_S8x2048_S_d0_1 : S8x2048.ReducesTo [0, 1] S_
  bcast_S_S2048x16 : S_.BroadcastsInDim S2048x16 (![] : Fin 0 → Fin S2048x16.rank)
  reducesTo_S2048x16_S_d0_1 : S2048x16.ReducesTo [0, 1] S_

variable [Facts]

def fn {F : FTy → Type} [FloatOps F] (main_arg0 : FVec F S131072x8 .f32) (main_arg1 : FVec F S8x2048 .f32) (main_arg2 : FVec F S2048x16 .f32) : IVec S_ 1 :=
  let main_v0 : FVec F S131072x8 .f32 := Host.absf main_arg0
  let main_cst : FVec F S_ .f32 := constant S_ .f32 0x7F800000#32
  let main_v1 : FVec F S131072x8 .f32 := broadcastInDim S131072x8 ![] bcast_S_S131072x8 main_cst
  let main_v2 : IVec S131072x8 1 := cmpf .olt main_v0 main_v1
  let main_c : IVec S_ 1 := constantI S_ 1 1#1
  let main_v3 : IVec S_ 1 := (fun x v => Host.reduce IntOp.andi x v reducesTo_S131072x8_S_d0_1 h_S_) main_v2 main_c
  let main_v4 : FVec F S8x2048 .f32 := Host.absf main_arg1
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_c_1 : IVec S_ 1 := constantI S_ 1 1#1
  let main_v7 : IVec S_ 1 := (fun x v => Host.reduce IntOp.andi x v reducesTo_S8x2048_S_d0_1 h_S_) main_v6 main_c_1
  let main_v8 : IVec S_ 1 := andi main_v3 main_v7
  let main_v9 : FVec F S2048x16 .f32 := Host.absf main_arg2
  let main_cst_2 : FVec F S_ .f32 := constant S_ .f32 0x7F800000#32
  let main_v10 : FVec F S2048x16 .f32 := broadcastInDim S2048x16 ![] bcast_S_S2048x16 main_cst_2
  let main_v11 : IVec S2048x16 1 := cmpf .olt main_v9 main_v10
  let main_c_3 : IVec S_ 1 := constantI S_ 1 1#1
  let main_v12 : IVec S_ 1 := (fun x v => Host.reduce IntOp.andi x v reducesTo_S2048x16_S_d0_1 h_S_) main_v11 main_c_3
  let main_v13 : IVec S_ 1 := andi main_v8 main_v12
  main_v13
-- ==== Kernel.lean ====
abbrev S131072x8 : Shape := ⟨2, ![131072, 8]⟩
abbrev S8x2048 : Shape := ⟨2, ![8, 2048]⟩
abbrev S2048x16 : Shape := ⟨2, ![2048, 16]⟩
abbrev S_ : Shape := ⟨0, ![]⟩
abbrev S16x2048 : Shape := ⟨2, ![16, 2048]⟩
abbrev S2048x8 : Shape := ⟨2, ![2048, 8]⟩
abbrev S16x8 : Shape := ⟨2, ![16, 8]⟩
abbrev S131072x16 : Shape := ⟨2, ![131072, 16]⟩
abbrev S1024x8 : Shape := ⟨2, ![1024, 8]⟩
abbrev S1024x16 : Shape := ⟨2, ![1024, 16]⟩
abbrev S1024x2048 : Shape := ⟨2, ![1024, 2048]⟩
abbrev S1024x1 : Shape := ⟨2, ![1024, 1]⟩
abbrev S1x2048 : Shape := ⟨2, ![1, 2048]⟩
abbrev S1x8 : Shape := ⟨2, ![1, 8]⟩

abbrev nBuf : Space → Nat
  | .hbm => 23
  | .vmem => 9
  | .smem => 0
  | _ => 0

abbrev bufTy : (tb : Table) → Fin (tcTables nBuf tb) → BufTy
  | .hbm, ⟨0, _⟩ => ⟨S131072x8, .f32⟩
  | .hbm, ⟨1, _⟩ => ⟨S8x2048, .f32⟩
  | .hbm, ⟨2, _⟩ => ⟨S2048x16, .f32⟩
  | .hbm, ⟨3, _⟩ => ⟨S8x2048, .f32⟩
  | .hbm, ⟨4, _⟩ => ⟨S_, .f32⟩
  | .hbm, ⟨5, _⟩ => ⟨S8x2048, .f32⟩
  | .hbm, ⟨6, _⟩ => ⟨S8x2048, .i1⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S2048x16, .f32⟩
  | .hbm, ⟨11, _⟩ => ⟨S_, .f32⟩
  | .hbm, ⟨12, _⟩ => ⟨S2048x16, .f32⟩
  | .hbm, ⟨13, _⟩ => ⟨S2048x16, .i1⟩
  | .hbm, ⟨14, _⟩ => ⟨S_, .f32⟩
  | .hbm, ⟨15, _⟩ => ⟨S2048x16, .f32⟩
  | .hbm, ⟨16, _⟩ => ⟨S2048x16, .f32⟩
  | .hbm, ⟨17, _⟩ => ⟨S2048x16, .bf16⟩
  | .hbm, ⟨18, _⟩ => ⟨S16x2048, .f32⟩
  | .hbm, ⟨19, _⟩ => ⟨S2048x8, .f32⟩
  | .hbm, ⟨20, _⟩ => ⟨S16x8, .f32⟩
  | .hbm, ⟨21, _⟩ => ⟨S131072x16, .f32⟩
  | .hbm, ⟨22, _⟩ => ⟨S131072x8, .f32⟩
  | .local _ .vmem, ⟨0, _⟩ => ⟨S1024x8, .f32⟩
  | .local _ .vmem, ⟨1, _⟩ => ⟨S1024x8, .f32⟩
  | .local _ .vmem, ⟨2, _⟩ => ⟨S8x2048, .f32⟩
  | .local _ .vmem, ⟨3, _⟩ => ⟨S2048x16, .bf16⟩
  | .local _ .vmem, ⟨4, _⟩ => ⟨S16x8, .f32⟩
  | .local _ .vmem, ⟨5, _⟩ => ⟨S1024x16, .f32⟩
  | .local _ .vmem, ⟨6, _⟩ => ⟨S1024x16, .f32⟩
  | .local _ .vmem, ⟨7, _⟩ => ⟨S1024x8, .f32⟩
  | .local _ .vmem, ⟨8, _⟩ => ⟨S1024x8, .f32⟩
  | _, _ => ⟨S131072x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [BitOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S8x2048 : S_.BroadcastsInDim S8x2048 (![] : Fin 0 → Fin S8x2048.rank)
  bcast_S_S2048x16 : S_.BroadcastsInDim S2048x16 (![] : Fin 0 → Fin S2048x16.rank)
  bitsLt_bf16_f32 : FTy.bits .bf16 < FTy.bits .f32
  transposes_S2048x16_S16x2048_1_0 : S2048x16.Transposes [1, 0] S16x2048
  transposes_S8x2048_S2048x8_1_0 : S8x2048.Transposes [1, 0] S2048x8
  inb_S1024x8_S1024x8_0_0 : ∀ a, (![0, 0] : Fin 2 → Nat) a + S1024x8.size a ≤ S1024x8.size a
  h_S1024x8 : 0 < S1024x8.numel
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S16x8_S16x8_0_0 : ∀ a, (![0, 0] : Fin 2 → Nat) a + S16x8.size a ≤ S16x8.size a
  h_S16x8 : 0 < S16x8.numel
  shapeCasts_S16x8_S16x8 : S16x8.ShapeCasts S16x8
  slices_S1024x8_o0_0_S1024x1 : S1024x8.Slices ![0, 0] S1024x1
  slices_S8x2048_o0_0_S1x2048 : S8x2048.Slices ![0, 0] S1x2048
  broadcasts_S1024x1_S1024x2048 : S1024x1.Broadcasts S1024x2048
  broadcasts_S1x2048_S1024x2048 : S1x2048.Broadcasts S1024x2048
  slices_S1024x8_o0_1_S1024x1 : S1024x8.Slices ![0, 1] S1024x1
  slices_S8x2048_o1_0_S1x2048 : S8x2048.Slices ![1, 0] S1x2048
  slices_S1024x8_o0_2_S1024x1 : S1024x8.Slices ![0, 2] S1024x1
  slices_S8x2048_o2_0_S1x2048 : S8x2048.Slices ![2, 0] S1x2048
  slices_S1024x8_o0_3_S1024x1 : S1024x8.Slices ![0, 3] S1024x1
  slices_S8x2048_o3_0_S1x2048 : S8x2048.Slices ![3, 0] S1x2048
  slices_S1024x8_o0_4_S1024x1 : S1024x8.Slices ![0, 4] S1024x1
  slices_S8x2048_o4_0_S1x2048 : S8x2048.Slices ![4, 0] S1x2048
  slices_S1024x8_o0_5_S1024x1 : S1024x8.Slices ![0, 5] S1024x1
  slices_S8x2048_o5_0_S1x2048 : S8x2048.Slices ![5, 0] S1x2048
  slices_S1024x8_o0_6_S1024x1 : S1024x8.Slices ![0, 6] S1024x1
  slices_S8x2048_o6_0_S1x2048 : S8x2048.Slices ![6, 0] S1x2048
  slices_S1024x8_o0_7_S1024x1 : S1024x8.Slices ![0, 7] S1024x1
  slices_S8x2048_o7_0_S1x2048 : S8x2048.Slices ![7, 0] S1x2048
  inb_S1024x16_S1024x16_0_0 : ∀ a, (![0, 0] : Fin 2 → Nat) a + S1024x16.size a ≤ S1024x16.size a
  h_S1024x16 : 0 < S1024x16.numel
  slices_S1024x16_o0_0_S1024x1 : S1024x16.Slices ![0, 0] S1024x1
  slices_S16x8_o0_0_S1x8 : S16x8.Slices ![0, 0] S1x8
  broadcasts_S1024x1_S1024x8 : S1024x1.Broadcasts S1024x8
  broadcasts_S1x8_S1024x8 : S1x8.Broadcasts S1024x8
  slices_S1024x16_o0_1_S1024x1 : S1024x16.Slices ![0, 1] S1024x1
  slices_S16x8_o1_0_S1x8 : S16x8.Slices ![1, 0] S1x8
  slices_S1024x16_o0_2_S1024x1 : S1024x16.Slices ![0, 2] S1024x1
  slices_S16x8_o2_0_S1x8 : S16x8.Slices ![2, 0] S1x8
  slices_S1024x16_o0_3_S1024x1 : S1024x16.Slices ![0, 3] S1024x1
  slices_S16x8_o3_0_S1x8 : S16x8.Slices ![3, 0] S1x8
  slices_S1024x16_o0_4_S1024x1 : S1024x16.Slices ![0, 4] S1024x1
  slices_S16x8_o4_0_S1x8 : S16x8.Slices ![4, 0] S1x8
  slices_S1024x16_o0_5_S1024x1 : S1024x16.Slices ![0, 5] S1024x1
  slices_S16x8_o5_0_S1x8 : S16x8.Slices ![5, 0] S1x8
  slices_S1024x16_o0_6_S1024x1 : S1024x16.Slices ![0, 6] S1024x1
  slices_S16x8_o6_0_S1x8 : S16x8.Slices ![6, 0] S1x8
  slices_S1024x16_o0_7_S1024x1 : S1024x16.Slices ![0, 7] S1024x1
  slices_S16x8_o7_0_S1x8 : S16x8.Slices ![7, 0] S1x8
  slices_S1024x16_o0_8_S1024x1 : S1024x16.Slices ![0, 8] S1024x1
  slices_S16x8_o8_0_S1x8 : S16x8.Slices ![8, 0] S1x8
  slices_S1024x16_o0_9_S1024x1 : S1024x16.Slices ![0, 9] S1024x1
  slices_S16x8_o9_0_S1x8 : S16x8.Slices ![9, 0] S1x8
  slices_S1024x16_o0_10_S1024x1 : S1024x16.Slices ![0, 10] S1024x1
  slices_S16x8_o10_0_S1x8 : S16x8.Slices ![10, 0] S1x8
  slices_S1024x16_o0_11_S1024x1 : S1024x16.Slices ![0, 11] S1024x1
  slices_S16x8_o11_0_S1x8 : S16x8.Slices ![11, 0] S1x8
  slices_S1024x16_o0_12_S1024x1 : S1024x16.Slices ![0, 12] S1024x1
  slices_S16x8_o12_0_S1x8 : S16x8.Slices ![12, 0] S1x8
  slices_S1024x16_o0_13_S1024x1 : S1024x16.Slices ![0, 13] S1024x1
  slices_S16x8_o13_0_S1x8 : S16x8.Slices ![13, 0] S1x8
  slices_S1024x16_o0_14_S1024x1 : S1024x16.Slices ![0, 14] S1024x1
  slices_S16x8_o14_0_S1x8 : S16x8.Slices ![14, 0] S1x8
  slices_S1024x16_o0_15_S1024x1 : S1024x16.Slices ![0, 15] S1024x1
  slices_S16x8_o15_0_S1x8 : S16x8.Slices ![15, 0] S1x8
  dot_S16x2048_S2048x8_S16x8_1_0_0_1_n_n_wf : DotDims.WF S16x2048 S2048x8 S16x8 [1] [0] [0] [1] [] []
  dot_S1024x2048_S2048x16_S1024x16_1_0_0_1_n_n_wf : DotDims.WF S1024x2048 S2048x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8.size a ≤ S131072x8.size a
  hwx0_0 : ∀ i : grid0.Coords, EltTy.bits .f32 = 32 ∨ (Rect.block (s := S131072x8) S1024x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S8x2048.size a
  hwx0_1 : ∀ i : grid0.Coords, EltTy.bits .f32 = 32 ∨ (Rect.block (s := S8x2048) S8x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x16.size a ≤ S2048x16.size a
  hwx0_2 : ∀ i : grid0.Coords, EltTy.bits .bf16 = 32 ∨ (Rect.block (s := S2048x16) S2048x16.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x8.size a ≤ S16x8.size a
  hwx0_3 : ∀ i : grid0.Coords, EltTy.bits .f32 = 32 ∨ (Rect.block (s := S16x8) S16x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x16.size a ≤ S131072x16.size a
  hwx0_4 : ∀ i : grid0.Coords, EltTy.bits .f32 = 32 ∨ (Rect.block (s := S131072x16) S1024x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x8.size a ≤ S131072x8.size a
  hwx0_5 : ∀ i : grid0.Coords, EltTy.bits .f32 = 32 ∨ (Rect.block (s := S131072x8) S1024x8.size (cc0_transform_5 i) (hinb0_5 i)).WholeWords (EltTy.packing .f32)

variable [Facts₀]

def dot_S16x2048_S2048x8_S16x8_1_0_0_1_n_n : DotDims S16x2048 S2048x8 S16x8 where
  lhsContracting := [1]
  rhsContracting := [0]
  lhsNonContracting := [0]
  rhsNonContracting := [1]
  lhsBatch := []
  rhsBatch := []
  wf := dot_S16x2048_S2048x8_S16x8_1_0_0_1_n_n_wf
def dot_S1024x2048_S2048x16_S1024x16_1_0_0_1_n_n : DotDims S1024x2048 S2048x16 S1024x16 where
  lhsContracting := [1]
  rhsContracting := [0]
  lhsNonContracting := [0]
  rhsNonContracting := [1]
  lhsBatch := []
  rhsBatch := []
  wf := dot_S1024x2048_S2048x16_S1024x16_1_0_0_1_n_n_wf

abbrev win0_0 : Pipeline.Window sig grid0 :=
  Pipeline.Window.ofSpec (Memref.whole main_arg0) S1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2048x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S16x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12_0) S1024x16.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12_1) S1024x8.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x8 : Shape := ⟨2, ![131072, 8]⟩
abbrev S8x2048 : Shape := ⟨2, ![8, 2048]⟩
abbrev S2048x16 : Shape := ⟨2, ![2048, 16]⟩
abbrev S_ : Shape := ⟨0, ![]⟩
abbrev S131072x2048 : Shape := ⟨2, ![131072, 2048]⟩
abbrev S131072x16 : Shape := ⟨2, ![131072, 16]⟩
abbrev S16x2048 : Shape := ⟨2, ![16, 2048]⟩
abbrev S2048x8 : Shape := ⟨2, ![2048, 8]⟩

abbrev nBuf : Space → Nat
  | .hbm => 37
  | .vmem => 0
  | .smem => 0
  | _ => 0

abbrev bufTy : (tb : Table) → Fin (tcTables nBuf tb) → BufTy
  | .hbm, ⟨0, _⟩ => ⟨S131072x8, .f32⟩
  | .hbm, ⟨1, _⟩ => ⟨S8x2048, .f32⟩
  | .hbm, ⟨2, _⟩ => ⟨S2048x16, .f32⟩
  | .hbm, ⟨3, _⟩ => ⟨S8x2048, .f32⟩
  | .hbm, ⟨4, _⟩ => ⟨S_, .f32⟩
  | .hbm, ⟨5, _⟩ => ⟨S8x2048, .f32⟩
  | .hbm, ⟨6, _⟩ => ⟨S8x2048, .i1⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S2048x16, .f32⟩
  | .hbm, ⟨11, _⟩ => ⟨S_, .f32⟩
  | .hbm, ⟨12, _⟩ => ⟨S2048x16, .f32⟩
  | .hbm, ⟨13, _⟩ => ⟨S2048x16, .i1⟩
  | .hbm, ⟨14, _⟩ => ⟨S_, .f32⟩
  | .hbm, ⟨15, _⟩ => ⟨S2048x16, .f32⟩
  | .hbm, ⟨16, _⟩ => ⟨S2048x16, .f32⟩
  | .hbm, ⟨17, _⟩ => ⟨S131072x2048, .f32⟩
  | .hbm, ⟨18, _⟩ => ⟨S131072x2048, .f32⟩
  | .hbm, ⟨19, _⟩ => ⟨S_, .f32⟩
  | .hbm, ⟨20, _⟩ => ⟨S131072x2048, .f32⟩
  | .hbm, ⟨21, _⟩ => ⟨S131072x2048, .i1⟩
  | .hbm, ⟨22, _⟩ => ⟨S_, .f32⟩
  | .hbm, ⟨23, _⟩ => ⟨S131072x2048, .f32⟩
  | .hbm, ⟨24, _⟩ => ⟨S131072x2048, .f32⟩
  | .hbm, ⟨25, _⟩ => ⟨S131072x16, .f32⟩
  | .hbm, ⟨26, _⟩ => ⟨S131072x16, .f32⟩
  | .hbm, ⟨27, _⟩ => ⟨S_, .f32⟩
  | .hbm, ⟨28, _⟩ => ⟨S131072x16, .f32⟩
  | .hbm, ⟨29, _⟩ => ⟨S131072x16, .i1⟩
  | .hbm, ⟨30, _⟩ => ⟨S_, .f32⟩
  | .hbm, ⟨31, _⟩ => ⟨S131072x16, .f32⟩
  | .hbm, ⟨32, _⟩ => ⟨S131072x16, .f32⟩
  | .hbm, ⟨33, _⟩ => ⟨S16x2048, .f32⟩
  | .hbm, ⟨34, _⟩ => ⟨S131072x2048, .f32⟩
  | .hbm, ⟨35, _⟩ => ⟨S2048x8, .f32⟩
  | .hbm, ⟨36, _⟩ => ⟨S131072x8, .f32⟩
  | _, _ => ⟨S131072x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_call2_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_cst_6 : Ref sig .tc := ⟨.hbm, 30, rfl⟩
abbrev main_call3_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]

class Facts₀ : Prop where
  bcast_S_S8x2048 : S_.BroadcastsInDim S8x2048 (![] : Fin 0 → Fin S8x2048.rank)
  bcast_S_S2048x16 : S_.BroadcastsInDim S2048x16 (![] : Fin 0 → Fin S2048x16.rank)
  bcast_S_S131072x2048 : S_.BroadcastsInDim S131072x2048 (![] : Fin 0 → Fin S131072x2048.rank)
  bcast_S_S131072x16 : S_.BroadcastsInDim S131072x16 (![] : Fin 0 → Fin S131072x16.rank)
  transposes_S2048x16_S16x2048_1_0 : S2048x16.Transposes [1, 0] S16x2048
  transposes_S8x2048_S2048x8_1_0 : S8x2048.Transposes [1, 0] S2048x8
  dot_S131072x8_S8x2048_S131072x2048_1_0_0_1_n_n_wf : DotDims.WF S131072x8 S8x2048 S131072x2048 [1] [0] [0] [1] [] []
  dot_S131072x2048_S2048x16_S131072x16_1_0_0_1_n_n_wf : DotDims.WF S131072x2048 S2048x16 S131072x16 [1] [0] [0] [1] [] []
  dot_S131072x16_S16x2048_S131072x2048_1_0_0_1_n_n_wf : DotDims.WF S131072x16 S16x2048 S131072x2048 [1] [0] [0] [1] [] []
  dot_S131072x2048_S2048x8_S131072x8_1_0_0_1_n_n_wf : DotDims.WF S131072x2048 S2048x8 S131072x8 [1] [0] [0] [1] [] []

variable [Facts₀]

def dot_S131072x8_S8x2048_S131072x2048_1_0_0_1_n_n : DotDims S131072x8 S8x2048 S131072x2048 where
  lhsContracting := [1]
  rhsContracting := [0]
  lhsNonContracting := [0]
  rhsNonContracting := [1]
  lhsBatch := []
  rhsBatch := []
  wf := dot_S131072x8_S8x2048_S131072x2048_1_0_0_1_n_n_wf
def dot_S131072x2048_S2048x16_S131072x16_1_0_0_1_n_n : DotDims S131072x2048 S2048x16 S131072x16 where
  lhsContracting := [1]
  rhsContracting := [0]
  lhsNonContracting := [0]
  rhsNonContracting := [1]
  lhsBatch := []
  rhsBatch := []
  wf := dot_S131072x2048_S2048x16_S131072x16_1_0_0_1_n_n_wf
def dot_S131072x16_S16x2048_S131072x2048_1_0_0_1_n_n : DotDims S131072x16 S16x2048 S131072x2048 where
  lhsContracting := [1]
  rhsContracting := [0]
  lhsNonContracting := [0]
  rhsNonContracting := [1]
  lhsBatch := []
  rhsBatch := []
  wf := dot_S131072x16_S16x2048_S131072x2048_1_0_0_1_n_n_wf
def dot_S131072x2048_S2048x8_S131072x8_1_0_0_1_n_n : DotDims S131072x2048 S2048x8 S131072x8 where
  lhsContracting := [1]
  rhsContracting := [0]
  lhsNonContracting := [0]
  rhsNonContracting := [1]
  lhsBatch := []
  rhsBatch := []
  wf := dot_S131072x2048_S2048x8_S131072x8_1_0_0_1_n_n_wf

class Facts : Prop extends Facts₀ where

variable [Facts]
-- ==== Proof.LibSignAlgebra.lean ====
/-
  Index-free facts that the two programs meet in.

  * `ste`: the sign with zero sent to one, `y ↦ if sign y = 0 then 1 else sign y`, spelt as both programs compute it on an
    extended real (the sign, a comparison of it with zero, a select). Whatever `y` is, infinite or not, `ste y` is the real
    number `-1` or `1`; only "it is a real" is used.
  * A finite sum of reals, coerced, is the sum of the coerced terms.
  * The decoder's law: for real-valued `z`, `B`, `A`,  `∑ₖ zₖ · (∑ₕ Bₕₖ · Aₕ) = ∑ₕ (∑ₖ zₖ · Bₕₖ) · Aₕ`. On the extended reals a
    product does not distribute over a sum in general (an infinite factor against terms of both signs), so the law is stated
    for factors that are reals, where it is the exchange of two finite sums.
  * A column `[a, 1]` broadcast along the second axis to `[a, b]` reads, at `(p, j)`, the column's entry of row `p`.
  * Sums over eight and sixteen indices written out term by term from the left, starting from an explicit zero: the shape in
    which an unrolled multiply-accumulate over a small axis computes them.
-/
import Idealize.ShloMosaic.PureOps.Ideal.Laws
import Idealize.ShloMosaic.Lib.ValueIdx
import Idealize.ShloMosaic.Lib.ValueLayout

noncomputable section

open scoped BigOperators

namespace SignAE

open Idealize.ShloMosaic Idealize.ShloMosaic.ValueIdx

/-! ## The sign with zero sent to one -/

/-- `sign y` where it is not zero, and one where it is: at every extended real, `-1` below zero and `1` from zero up. -/
def ste (y : EReal) : EReal :=
  Scalar.select (FloatOps.cmpf (F := Ideal) (φ := .f32) .oeq (Ideal.sign y) (Ideal.ofBits .f32 0x00000000#32))
    (Ideal.ofBits .f32 0x3F800000#32) (Ideal.sign y)

/-- The sign of an extended real is a real number (`-1`, `0` or `1`; the infinities have signs `∓1`). -/
theorem sign_real (y : EReal) : ∃ r : ℝ, Ideal.sign y = (r : EReal) := by
  induction y with
  | bot => exact ⟨-1, by rw [Ideal.sign_bot, EReal.coe_neg, EReal.coe_one]⟩
  | top => exact ⟨1, by rw [Ideal.sign_top, EReal.coe_one]⟩
  | coe r => exact ⟨(SignType.sign r : ℝ), rfl⟩

/-- So is the sign with zero sent to one: it is the sign or the literal one. -/
theorem ste_real (y : EReal) : ∃ r : ℝ, ste y = (r : EReal) := by
  unfold ste
  rcases BitVec.eq_zero_or_eq_one
    (FloatOps.cmpf (F := Ideal) (φ := .f32) .oeq (Ideal.sign y) (Ideal.ofBits .f32 0x00000000#32)) with h | h
  · rw [h, select_zero]; exact sign_real y
  · rw [h, select_one]; exact ⟨1, by rw [EReal.coe_one]; exact IdealRules.sign_bit.ideal_onePat .f32⟩

/-! ## Finite sums of reals on the extended reals -/

/-- The coercion of a finite real sum is the sum of the coerced terms. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The decoder's law: with every factor a real, the weighted sum of `z` against the products `∑ₕ Bₕₖ · Aₕ` is the sum over
    `h` of `(∑ₖ zₖ · Bₕₖ) · Aₕ` — two finite sums exchanged. -/
theorem decode_assoc {K H : Type*} [Fintype K] [Fintype H] (z : K → EReal) (B : H → K → EReal) (A : H → EReal)
    (hz : ∀ k, ∃ r : ℝ, z k = (r : EReal)) (hB : ∀ h k, ∃ r : ℝ, B h k = (r : EReal)) (hA : ∀ h, ∃ r : ℝ, A h = (r : EReal)) :
    ∑ k, z k * (∑ h, B h k * A h) = ∑ h, (∑ k, z k * B h k) * A h := by
  choose zr hzr using hz
  choose Br hBr using hB
  choose Ar hAr using hA
  simp only [hzr, hBr, hAr, ← EReal.coe_mul, ← coe_sum]
  refine congrArg _ ?_
  simp only [Finset.mul_sum, Finset.sum_mul]
  rw [Finset.sum_comm]
  refine Finset.sum_congr rfl fun h _ => Finset.sum_congr rfl fun k _ => ?_
  ring

/-! ## A column broadcast along the second axis -/

/-- A `[a, 1]` array broadcast to `[a, b]` reads, at `(p, j)`, the operand's entry of row `p`. -/
theorem bcast_col {α : Type} {a b : ℕ} (v : (⟨2, ![a, 1]⟩ : Shape).Idx → α)
    (h : (⟨2, ![a, 1]⟩ : Shape).Broadcasts ⟨2, ![a, b]⟩) (p : Fin a) (j : Fin b) :
    broadcastTo ⟨2, ![a, b]⟩ v h (ix2 p j) = v (ix2 p (0 : Fin 1)) := by
  refine broadcastTo_apply v h (ix2 p j) (ix2 p (0 : Fin 1)) fun ax => ?_
  match ax with
  | ⟨0, _⟩ =>
    show p.val = if a = 1 then 0 else p.val
    split
    · have := p.isLt; omega
    · rfl
  | ⟨1, _⟩ => rfl

/-! ## Small sums, term by term from the left -/

/-- Eight terms accumulated from zero, left to right, are the sum over `Fin 8`. -/
theorem sum8_left {M : Type*} [AddCommMonoid M] (f : Fin 8 → M) :
    0 + f 0 + f 1 + f 2 + f 3 + f 4 + f 5 + f 6 + f 7 = ∑ i, f i := by
  rw [Fin.sum_univ_eight, zero_add]

/-- Sixteen terms accumulated from zero, left to right, are the sum over `Fin 16`. -/
theorem sum16_left {M : Type*} [AddCommMonoid M] (f : Fin 16 → M) :
    0 + f 0 + f 1 + f 2 + f 3 + f 4 + f 5 + f 6 + f 7 + f 8 + f 9 + f 10 + f 11 + f 12 + f 13 + f 14 + f 15 = ∑ i, f i := by
  rw [zero_add]
  simp only [Fin.sum_univ_castSucc, Fin.sum_univ_zero, zero_add]
  rfl

end SignAE

end
-- ==== Proof.Spec.lean ====
/-
  What the two programs compute, as one function per result array.

  The network is a binarized autoencoder over a batch of 131072 rows. With `ste` the sign with zero sent to one:
    the binarized weights           a[j, h] = ste W1[j, h]   (8 × 2048)      b[h, k] = ste W2[h, k]   (2048 × 16);
    the hidden units of row p       hid[p, h] = ste (∑ⱼ x[p, j] · a[j, h]);
    the code of row p               code[p, k] = ste (∑ₕ hid[p, h] · b[h, k])            — the first result;
    the reconstruction of row p     x̂[p, j] = ∑ₕ (∑ₖ code[p, k] · b[h, k]) · a[j, h]    — the second result.
  Every factor of the reconstruction is a real number (a value of `ste`), so it is also ∑ₖ code[p, k] · (∑ₕ b[h, k] · a[j, h]):
  the code against the two weight matrices multiplied first (`recon_decoded`).
-/
import proofs.«161669_j85383949845057_2_alg».proof.Proof.LibSignAlgebra

noncomputable section

open scoped BigOperators

namespace SignAE

open Idealize.ShloMosaic Idealize.ShloMosaic.ValueIdx

variable (x : (⟨2, ![131072, 8]⟩ : Shape).Idx → EReal) (W1 : (⟨2, ![8, 2048]⟩ : Shape).Idx → EReal)
  (W2 : (⟨2, ![2048, 16]⟩ : Shape).Idx → EReal)

/-- The binarized first-layer weight at (input j, hidden unit h). -/
def w1b (j : Fin 8) (h : Fin 2048) : EReal := ste (W1 (ix2 j h))

/-- The binarized second-layer weight at (hidden unit h, code bit k). -/
def w2b (h : Fin 2048) (k : Fin 16) : EReal := ste (W2 (ix2 h k))

/-- Hidden unit h of row p: the binarized first-layer pre-activation. -/
def hid (p : Fin 131072) (h : Fin 2048) : EReal := ste (∑ j : Fin 8, x (ix2 p j) * w1b W1 j h)

/-- Code bit k of row p: the binarized second-layer pre-activation. -/
def code (p : Fin 131072) (k : Fin 16) : EReal := ste (∑ h : Fin 2048, hid x W1 p h * w2b W2 h k)

/-- The first result array: the codes. -/
def codes : (⟨2, ![131072, 16]⟩ : Shape).Idx → EReal := fun i => code x W1 W2 (i 0) (i 1)

/-- The second result array: the code decoded through the transposed second layer, then the transposed first layer. -/
def recon : (⟨2, ![131072, 8]⟩ : Shape).Idx → EReal :=
  fun i => ∑ h : Fin 2048, (∑ k : Fin 16, code x W1 W2 (i 0) k * w2b W2 h k) * w1b W1 (i 1) h

theorem codes_ix2 (p : Fin 131072) (k : Fin 16) : codes x W1 W2 (ix2 p k) = code x W1 W2 p k := rfl

theorem recon_ix2 (p : Fin 131072) (j : Fin 8) :
    recon x W1 W2 (ix2 p j) = ∑ h : Fin 2048, (∑ k : Fin 16, code x W1 W2 p k * w2b W2 h k) * w1b W1 j h := rfl

/-- The reconstruction with the two weight matrices multiplied first: every factor is a real, so the sums exchange. -/
theorem recon_decoded (p : Fin 131072) (j : Fin 8) :
    recon x W1 W2 (ix2 p j) = ∑ k : Fin 16, code x W1 W2 p k * (∑ h : Fin 2048, w2b W2 h k * w1b W1 j h) :=
  (decode_assoc (fun k => code x W1 W2 p k) (fun h k => w2b W2 h k) (fun h => w1b W1 j h)
    (fun _ => ste_real _) (fun _ _ => ste_real _) (fun _ => ste_real _)).symm

end SignAE

end
-- ==== Proof.RefSpec.lean ====
/-
  The reference program's two results are the specification's arrays.

  Read one operation at a time, the reference binarizes both weight matrices (a sign, a comparison with zero, a select),
  multiplies the batch by the first, binarizes, multiplies by the second, binarizes — the codes — and multiplies the codes by
  the two transposed weight matrices in turn. Each binarization, read at an element, is `ste` of that element by unfolding;
  each product is a sum over its contracted axis, whose operand indices are named here coordinate by coordinate.
-/
import proofs.«161669_j85383949845057_2_alg».proof.Proof.Gen.ReferenceIdeal.Read
import proofs.«161669_j85383949845057_2_alg».proof.Proof.Spec

noncomputable section

open scoped BigOperators

namespace SignAE.Ref

open Idealize.ShloMosaic Idealize.ShloMosaic.ValueIdx Cert.ReferenceIdeal Cert.ReferenceIdeal.Read SignAE

variable (x0 : (⟨S131072x8, .f32⟩ : BufTy).Contents (Elt Ideal)) (x1 : (⟨S8x2048, .f32⟩ : BufTy).Contents (Elt Ideal))
  (x2 : (⟨S2048x16, .f32⟩ : BufTy).Contents (Elt Ideal))

/-! ## The contractions' operand indices, by coordinates -/

theorem lidx8 (p : Fin 131072) (h : Fin 2048) (j : Fin 8) : lidx_main_v8 (ix2 p h) j = ix2 p j :=
  funext fun a => Fin.ext (by match a with | ⟨0, _⟩ => rfl | ⟨1, _⟩ => rfl)
theorem ridx8 (p : Fin 131072) (h : Fin 2048) (j : Fin 8) : ridx_main_v8 (ix2 p h) j = ix2 j h :=
  funext fun a => Fin.ext (by match a with | ⟨0, _⟩ => rfl | ⟨1, _⟩ => rfl)
theorem lidx13 (p : Fin 131072) (k : Fin 16) (h : Fin 2048) : lidx_main_v13 (ix2 p k) h = ix2 p h :=
  funext fun a => Fin.ext (by match a with | ⟨0, _⟩ => rfl | ⟨1, _⟩ => rfl)
theorem ridx13 (p : Fin 131072) (k : Fin 16) (h : Fin 2048) : ridx_main_v13 (ix2 p k) h = ix2 h k :=
  funext fun a => Fin.ext (by match a with | ⟨0, _⟩ => rfl | ⟨1, _⟩ => rfl)
theorem idx18 (k : Fin 16) (h : Fin 2048) : idx_main_v18 (ix2 k h) = ix2 h k :=
  funext fun a => Fin.ext (by match a with | ⟨0, _⟩ => rfl | ⟨1, _⟩ => rfl)
theorem lidx19 (p : Fin 131072) (h : Fin 2048) (k : Fin 16) : lidx_main_v19 (ix2 p h) k = ix2 p k :=
  funext fun a => Fin.ext (by match a with | ⟨0, _⟩ => rfl | ⟨1, _⟩ => rfl)
theorem ridx19 (p : Fin 131072) (h : Fin 2048) (k : Fin 16) : ridx_main_v19 (ix2 p h) k = ix2 k h :=
  funext fun a => Fin.ext (by match a with | ⟨0, _⟩ => rfl | ⟨1, _⟩ => rfl)
theorem idx20 (h : Fin 2048) (j : Fin 8) : idx_main_v20 (ix2 h j) = ix2 j h :=
  funext fun a => Fin.ext (by match a with | ⟨0, _⟩ => rfl | ⟨1, _⟩ => rfl)
theorem lidx21 (p : Fin 131072) (j : Fin 8) (h : Fin 2048) : lidx_main_v21 (ix2 p j) h = ix2 p h :=
  funext fun a => Fin.ext (by match a with | ⟨0, _⟩ => rfl | ⟨1, _⟩ => rfl)
theorem ridx21 (p : Fin 131072) (j : Fin 8) (h : Fin 2048) : ridx_main_v21 (ix2 p j) h = ix2 h j :=
  funext fun a => Fin.ext (by match a with | ⟨0, _⟩ => rfl | ⟨1, _⟩ => rfl)

/-! ## The stages -/

/-- The binarized first-layer weights, at an element. -/
theorem w1b_eq (i : S8x2048.Idx) : val_main_v3 (F := Ideal) x1 i = ste (x1 i) := rfl

/-- The binarized second-layer weights, at an element. -/
theorem w2b_eq (i : S2048x16.Idx) : val_main_v7 (F := Ideal) x2 i = ste (x2 i) := rfl

/-- The hidden units. -/
theorem hid_eq (p : Fin 131072) (h : Fin 2048) : val_main_v12 (F := Ideal) x0 x1 (ix2 p h) = hid x0 x1 p h := by
  have e : val_main_v12 (F := Ideal) x0 x1 (ix2 p h) = ste (val_main_v8 (F := Ideal) x0 x1 (ix2 p h)) := rfl
  rw [e, val_main_v8_apply]
  unfold hid w1b
  refine congrArg ste (Finset.sum_congr rfl fun j _ => ?_)
  rw [lidx8, ridx8, w1b_eq]

/-- The codes. -/
theorem code_eq (p : Fin 131072) (k : Fin 16) : val_main_v17 (F := Ideal) x0 x1 x2 (ix2 p k) = code x0 x1 x2 p k := by
  have e : val_main_v17 (F := Ideal) x0 x1 x2 (ix2 p k) = ste (val_main_v13 (F := Ideal) x0 x1 x2 (ix2 p k)) := rfl
  rw [e, val_main_v13_apply]
  unfold code w2b
  refine congrArg ste (Finset.sum_congr rfl fun h _ => ?_)
  rw [lidx13, ridx13, hid_eq, w2b_eq]

/-- The first result is the array of codes. -/
theorem codes_eq : val_main_v17 (F := Ideal) x0 x1 x2 = codes x0 x1 x2 := by
  funext i
  obtain ⟨p, k, rfl⟩ : ∃ (p : Fin 131072) (k : Fin 16), i = ix2 p k := ⟨i 0, i 1, eq_ix2 i⟩
  exact code_eq x0 x1 x2 p k

/-- The second result is the reconstruction. -/
theorem recon_eq : val_main_v21 (F := Ideal) x0 x1 x2 = recon x0 x1 x2 := by
  funext i
  obtain ⟨p, j, rfl⟩ : ∃ (p : Fin 131072) (j : Fin 8), i = ix2 p j := ⟨i 0, i 1, eq_ix2 i⟩
  rw [val_main_v21_apply, recon_ix2]
  refine Finset.sum_congr rfl fun h _ => ?_
  rw [lidx21, ridx21, val_main_v19_apply, val_main_v20_apply, idx20, w1b_eq]
  unfold w1b
  refine congrArg (· * ste (x1 (ix2 j h))) (Finset.sum_congr rfl fun k _ => ?_)
  rw [lidx19, ridx19, code_eq, val_main_v18_apply, idx18, w2b_eq]
  rfl

end SignAE.Ref

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.KernelBody.lean ====
/-
  The kernel body's arithmetic, read at an element of a block.

  One grid point holds a block of 1024 rows of the batch, the whole binarized first-layer weights `a` (8 × 2048), the whole
  binarized second-layer weights `b` (2048 × 16) and the 16 × 8 matrix `M`. The body
    * forms the first-layer pre-activation by eight multiply-accumulate steps from zero: at (p, q) the left-to-right sum
      0 + x[p,0]·a[0,q] + … + x[p,7]·a[7,q]  (a column of x broadcast along the row, a row of a broadcast down the columns);
    * binarizes it (the sign, then zero sent to one), multiplies by `b` on the matrix unit into a zero accumulator,
      binarizes again: the block of codes, which it stores;
    * decodes the codes by sixteen multiply-accumulate steps from zero against the rows of `M`: at (p, j) the sum
      0 + code[p,0]·M[0,j] + … + code[p,15]·M[15,j], which it stores.
  Everything is stated over variables for the four loaded blocks, at an element given by its two coordinates.
-/
import proofs.«161669_j85383949845057_2_alg».proof.Proof.Gen.KernelIdeal.Skeleton
import proofs.«161669_j85383949845057_2_alg».proof.Proof.LibSignAlgebra
import proofs.«161669_j85383949845057_2_alg».proof.Proof.LibMatmulNN

noncomputable section

open scoped BigOperators

namespace SignAE.Body

open Idealize.ShloMosaic Idealize.ShloMosaic.ValueIdx Cert.KernelIdeal Cert.KernelIdeal.Gen SignAE

/-- The zero word is zero. -/
theorem zero_word : Scalar.ofBits (F := Ideal) .f32 0x00000000#32 = (0 : EReal) := IdealRules.sign_bit.ideal_zero .f32

/-! ## The vector form of the sign with zero sent to one -/

/-- The body's sign of a vector: `1.0` carrying the element's sign where the element is not zero, the element (zero) elsewhere. -/
def sgnV {s : Shape} (y : FVec Ideal s .f32) : FVec Ideal s .f32 :=
  select (cmpf .ogt (absf y) (broadcast s (Scalar.ofBits .f32 0x00000000#32)))
    (select (cmpf .olt y (constant s .f32 0x00000000#32)) (constant s .f32 0xBF800000#32) (constant s .f32 0x3F800000#32)) y

/-- The body's binarization of a vector: its sign where that is not zero, one where it is. -/
def steV {s : Shape} (y : FVec Ideal s .f32) : FVec Ideal s .f32 :=
  select (cmpf .oeq (sgnV y) (broadcast s (Scalar.ofBits .f32 0x00000000#32))) (broadcast s (Scalar.ofBits .f32 0x3F800000#32)) (sgnV y)

/-- At an element it is `ste` of the element. -/
theorem steV_apply {s : Shape} (y : FVec Ideal s .f32) (i : s.Idx) : steV y i = ste (y i) := by
  have hs : sgnV y = fun i => Ideal.sign (y i) := funext fun i => Ideal.jnp_sign_eq_sign_f32 (y i)
  unfold steV
  rw [hs]
  rfl

/-! ## The first-layer pre-activation -/

/-- Seven of the eight multiply-accumulate steps, from zero. -/
theorem pay5_apply (v0 : Vec Ideal S1024x8 .f32) (v1 : Vec Ideal S8x2048 .f32) (p : Fin 1024) (q : Fin 2048) :
    k0_pay5 v0 v1 (ix2 p q) = 0 + v0 (ix2 p 0) * v1 (ix2 0 q) + v0 (ix2 p 1) * v1 (ix2 1 q) + v0 (ix2 p 2) * v1 (ix2 2 q)
      + v0 (ix2 p 3) * v1 (ix2 3 q) + v0 (ix2 p 4) * v1 (ix2 4 q) + v0 (ix2 p 5) * v1 (ix2 5 q) + v0 (ix2 p 6) * v1 (ix2 6 q) := by
  unfold k0_pay5 k0_pay2
  simp only [addf_apply, mulf_apply, broadcast_apply, bcast_col, broadcastTo_1b_ab_apply, slice2_axis0_eq, slice2_axis1_eq,
    shapeCast_self, zero_word]
  rfl

/-- The block of codes from the pre-activation's first seven steps `v49`: the eighth step, the binarization, the product
    with the second-layer weights on the matrix unit into zero, and the second binarization. -/
theorem pay6_apply (v0 : Vec Ideal S1024x8 .f32) (v2 : FVec Ideal S8x2048 .f32) (v4 : FVec Ideal S2048x16 .bf16)
    (v49 : FVec Ideal S1024x2048 .f32) (p : Fin 1024) (k : Fin 16) :
    k0_pay6 v0 v2 v4 v49 (ix2 p k)
      = ste (∑ h : Fin 2048, ste (v49 (ix2 p h) + v0 (ix2 p 7) * v2 (ix2 7 h)) * v4 (ix2 h k)) := by
  unfold k0_pay6
  refine (steV_apply _ (ix2 p k)).trans (congrArg ste ?_)
  refine (LibMatmulNN.matmul_zero_apply 1024 2048 16 none _ v4 p k).trans
    (Finset.sum_congr rfl fun h _ => congrArg (· * v4 (ix2 h k)) ?_)
  refine (steV_apply _ (ix2 p h)).trans (congrArg ste ?_)
  simp only [addf_apply, mulf_apply, bcast_col, broadcastTo_1b_ab_apply, slice2_axis0_eq, slice2_axis1_eq]
  rfl

/-- The block of codes as a function of the three loaded blocks: at (p, k),
    `ste (∑ₕ ste (∑ⱼ x[p,j] · a[j,h]) · b[h,k])`. -/
theorem code_block (P0 : Vec Ideal S1024x8 .f32) (P1 : Vec Ideal S8x2048 .f32) (P2 : Vec Ideal S2048x16 .bf16)
    (p : Fin 1024) (k : Fin 16) :
    k0_pay6 P0 (k0_pay2 P1) (k0_pay3 P2) (k0_pay5 P0 P1) (ix2 p k)
      = ste (∑ h : Fin 2048, ste (∑ j : Fin 8, P0 (ix2 p j) * P1 (ix2 j h)) * P2 (ix2 h k)) := by
  have e2 : k0_pay2 P1 = P1 := by unfold k0_pay2; exact shapeCast_self _ _
  have e3 : k0_pay3 P2 = P2 := by unfold k0_pay3; exact shapeCast_self _ _
  rw [e2, e3, pay6_apply]
  refine congrArg ste (Finset.sum_congr rfl fun h _ => congrArg (fun y => ste y * P2 (ix2 h k)) ?_)
  rw [pay5_apply]
  exact sum8_left (fun j => P0 (ix2 p j) * P1 (ix2 j h))

/-! ## The decode: sixteen multiply-accumulate steps against the rows of `M` -/

/-- Steps 0 and 1, from zero. -/
theorem pay7_apply (v0 : Vec Ideal S1024x8 .f32) (v2 : FVec Ideal S8x2048 .f32) (v4 : FVec Ideal S2048x16 .bf16)
    (v6 : FVec Ideal S16x8 .f32) (v49 : FVec Ideal S1024x2048 .f32) (p : Fin 1024) (j : Fin 8) :
    k0_pay7 v0 v2 v4 v6 v49 (ix2 p j)
      = 0 + k0_pay6 v0 v2 v4 v49 (ix2 p 0) * v6 (ix2 0 j) + k0_pay6 v0 v2 v4 v49 (ix2 p 1) * v6 (ix2 1 j) := by
  unfold k0_pay7
  simp only [addf_apply, mulf_apply, broadcast_apply, bcast_col, broadcastTo_1b_ab_apply, slice2_axis0_eq, slice2_axis1_eq,
    zero_word]
  rfl

/-- Column 2 of the codes, kept for step 2. -/
theorem pay8_apply (v0 : Vec Ideal S1024x8 .f32) (v2 : FVec Ideal S8x2048 .f32) (v4 : FVec Ideal S2048x16 .bf16)
    (v49 : FVec Ideal S1024x2048 .f32) (p : Fin 1024) :
    k0_pay8 v0 v2 v4 v49 (ix2 p (0 : Fin 1)) = k0_pay6 v0 v2 v4 v49 (ix2 p 2) := by
  unfold k0_pay8
  simp only [slice2_axis1_eq]
  rfl

/-- Steps 2 to 11, onto what steps 0 and 1 left (`v99`); step 2's column of codes is `v100`. -/
theorem pay9_apply (v6 : FVec Ideal S16x8 .f32) (v85 : FVec Ideal S1024x16 .f32) (v99 : FVec Ideal S1024x8 .f32)
    (v100 : FVec Ideal S1024x1 .f32) (p : Fin 1024) (j : Fin 8) :
    k0_pay9 v6 v85 v99 v100 (ix2 p j)
      = v99 (ix2 p j) + v100 (ix2 p (0 : Fin 1)) * v6 (ix2 2 j) + v85 (ix2 p 3) * v6 (ix2 3 j) + v85 (ix2 p 4) * v6 (ix2 4 j)
        + v85 (ix2 p 5) * v6 (ix2 5 j) + v85 (ix2 p 6) * v6 (ix2 6 j) + v85 (ix2 p 7) * v6 (ix2 7 j) + v85 (ix2 p 8) * v6 (ix2 8 j)
        + v85 (ix2 p 9) * v6 (ix2 9 j) + v85 (ix2 p 10) * v6 (ix2 10 j) + v85 (ix2 p 11) * v6 (ix2 11 j) := by
  unfold k0_pay9
  simp only [addf_apply, mulf_apply, bcast_col, broadcastTo_1b_ab_apply, slice2_axis0_eq, slice2_axis1_eq]
  rfl

/-- Column 12 of the codes, kept for step 12. -/
theorem pay10_apply (v85 : FVec Ideal S1024x16 .f32) (p : Fin 1024) :
    k0_pay10 v85 (ix2 p (0 : Fin 1)) = v85 (ix2 p 12) := by
  unfold k0_pay10
  simp only [slice2_axis1_eq]
  rfl

/-- Steps 12 to 15, onto what steps 0 to 11 left (`v159`); step 12's column of codes is `v160`. -/
theorem pay1_apply (v6 : FVec Ideal S16x8 .f32) (v85 : FVec Ideal S1024x16 .f32) (v159 : FVec Ideal S1024x8 .f32)
    (v160 : FVec Ideal S1024x1 .f32) (p : Fin 1024) (j : Fin 8) :
    k0_pay1 v6 v85 v159 v160 (ix2 p j)
      = v159 (ix2 p j) + v160 (ix2 p (0 : Fin 1)) * v6 (ix2 12 j) + v85 (ix2 p 13) * v6 (ix2 13 j) + v85 (ix2 p 14) * v6 (ix2 14 j)
        + v85 (ix2 p 15) * v6 (ix2 15 j) := by
  unfold k0_pay1
  simp only [addf_apply, mulf_apply, bcast_col, broadcastTo_1b_ab_apply, slice2_axis0_eq, slice2_axis1_eq]
  rfl

/-- The decoded block as a function of the block of codes `Z` and the loaded `M`: at (p, j), `∑ₖ Z[p,k] · M[k,j]`. -/
theorem recon_block (P0 : Vec Ideal S1024x8 .f32) (P1 : Vec Ideal S8x2048 .f32) (P2 : Vec Ideal S2048x16 .bf16)
    (P3 : Vec Ideal S16x8 .f32) (p : Fin 1024) (j : Fin 8) :
    k0_pay1 (k0_pay4 P3) (k0_pay6 P0 (k0_pay2 P1) (k0_pay3 P2) (k0_pay5 P0 P1))
        (k0_pay9 (k0_pay4 P3) (k0_pay6 P0 (k0_pay2 P1) (k0_pay3 P2) (k0_pay5 P0 P1))
          (k0_pay7 P0 (k0_pay2 P1) (k0_pay3 P2) (k0_pay4 P3) (k0_pay5 P0 P1))
          (k0_pay8 P0 (k0_pay2 P1) (k0_pay3 P2) (k0_pay5 P0 P1)))
        (k0_pay10 (k0_pay6 P0 (k0_pay2 P1) (k0_pay3 P2) (k0_pay5 P0 P1))) (ix2 p j)
      = ∑ k : Fin 16, k0_pay6 P0 (k0_pay2 P1) (k0_pay3 P2) (k0_pay5 P0 P1) (ix2 p k) * P3 (ix2 k j) := by
  have e4 : k0_pay4 P3 = P3 := by unfold k0_pay4; exact shapeCast_self _ _
  rw [e4, pay1_apply, pay9_apply, pay7_apply, pay8_apply, pay10_apply]
  exact sum16_left (fun k => k0_pay6 P0 (k0_pay2 P1) (k0_pay3 P2) (k0_pay5 P0 P1) (ix2 p k) * P3 (ix2 k j))

end SignAE.Body

end
-- ==== Proof.LibDotGeneralNN.lean ====
/-
  jnp's `dot_general` on the host of a row-major `M × K` array against a `K × N` array (the right operand NOT
  transposed: the left operand's axis 1 is contracted with the right operand's axis 0), read at the extended reals:
  entry `(p, q)` of the result is the sum over `k` of `x[p, k] · w[k, q]`, whatever the schedule key and the precision.
  It is the same sum, over the same index set `Fin K` and in the same form, as the matrix unit's product into a zero
  accumulator (LibMatmulNN.matmul_zero_apply), so a kernel's `tpu.matmul` and a reference's `dot_general` of equal
  operands are equal entry by entry.  General in the three extents and in the operands' float formats.
-/
import Idealize.ShloMosaic.PureOps.Ideal.Laws
import Idealize.ShloMosaic.Lib.ValueIdx
import proofs.«161669_j85383949845057_2_alg».proof.Proof.LibMatmulNN

noncomputable section

open scoped BigOperators

namespace LibDotGeneralNN

open Idealize.ShloMosaic Idealize.ShloMosaic.ValueIdx

variable (M K N : Nat)

/-- Entry `(p, q)` of the host's `dot_general` of `x` and `w` is `∑ k, x[p, k] · w[k, q]` on the extended reals. -/
theorem dotGeneral_apply {φ₁ φ₂ : FTy} (prec : Option ContractPrecision) (sched : HostSchedule)
    (x : FVec Ideal ⟨2, ![M, K]⟩ φ₁) (w : FVec Ideal ⟨2, ![K, N]⟩ φ₂) (p : Fin M) (q : Fin N) :
    FloatOps.dotGeneral (DotDims.plain M K N) prec sched x w (ix2 p q)
      = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [LibMatmulNN.lhsIdx_eq, LibMatmulNN.rhsIdx_eq]

end LibDotGeneralNN

end
-- ==== Proof.KernelHost.lean ====
/-
  What the region finds in its three weight operands, as functions of the program's arguments.

  Before the region the host binarizes both weight matrices (a sign, a comparison with zero, a select), rounds the second
  to the narrower float format (no change on the extended reals), transposes both and multiplies the transposes:
    window 1's array at (j, h)   is  a[j, h] = ste W1[j, h];
    window 2's array at (h, k)   is  b[h, k] = ste W2[h, k];
    window 3's array at (k, j)   is  M[k, j] = ∑ₕ b[h, k] · a[j, h]   (row k of bᵀ against column j of aᵀ).
-/
import proofs.«161669_j85383949845057_2_alg».proof.Proof.Gen.KernelIdeal.Frame
import proofs.«161669_j85383949845057_2_alg».proof.Proof.Spec
import proofs.«161669_j85383949845057_2_alg».proof.Proof.LibDotGeneralNN
import Idealize.ShloMosaic.Lib.StableHlo.Run
import Idealize.ShloMosaic.Lib.ValueLayout

noncomputable section

open scoped BigOperators

namespace SignAE.Host

open Cert.KernelIdeal Cert.KernelIdeal.Gen Idealize.ShloMosaic Idealize.ShloMosaic.TcCoe Idealize.SL.Sem
open Idealize.ShloMosaic.ValueIdx SignAE

variable (m : (ℓ : Loc nD τ sig) → Buf (Elt Ideal) ℓ)

/-- Window 1's array: the first-layer weights, binarized element by element. -/
theorem V_w1 (c : Dev nD) :
    (V m c main_v3 : S8x2048.Idx → EReal) = fun i => ste (m ((c : Thread nD τ).loc main_arg1) i) := by
  dsimp only [V]
  simp only [hostOps0, hostOps0_1, hostOps0_2, hostOps0_3, hostOps0_4, List.flatten_cons, List.flatten_nil, List.append_nil,
    List.cons_append, List.nil_append]
  after_results
  rfl

/-- Window 2's array: the second-layer weights, binarized element by element (the change of float format is the identity). -/
theorem V_w2 (c : Dev nD) :
    (V m c main_v8 : S2048x16.Idx → EReal) = fun i => ste (m ((c : Thread nD τ).loc main_arg2) i) := by
  dsimp only [V]
  simp only [hostOps0, hostOps0_1, hostOps0_2, hostOps0_3, hostOps0_4, List.flatten_cons, List.flatten_nil, List.append_nil,
    List.cons_append, List.nil_append]
  after_results
  rfl

/-- Window 3's array, as the host computes it: the product of the two transposed binarized weight matrices. -/
theorem V_M_term (c : Dev nD) :
    (V m c main_v11 : S16x8.Idx → EReal)
      = Host.dotGeneral (F := Ideal) (φ₁ := .f32) (φ₂ := .f32) dot_S16x2048_S2048x8_S16x8_1_0_0_1_n_n (some .fp32)
          (transpose S16x2048 [1, 0] ((fun i => ste (m ((c : Thread nD τ).loc main_arg2) i)) : FVec Ideal S2048x16 .f32)
            transposes_S2048x16_S16x2048_1_0)
          (transpose S2048x8 [1, 0] ((fun i => ste (m ((c : Thread nD τ).loc main_arg1) i)) : FVec Ideal S8x2048 .f32)
            transposes_S8x2048_S2048x8_1_0) := by
  dsimp only [V]
  simp only [hostOps0, hostOps0_1, hostOps0_2, hostOps0_3, hostOps0_4, List.flatten_cons, List.flatten_nil, List.append_nil,
    List.cons_append, List.nil_append]
  after_results
  rfl

/-- Window 3's array at (k, j): `∑ₕ b[h, k] · a[j, h]`. -/
theorem V_M (c : Dev nD) (k : Fin 16) (j : Fin 8) :
    (V m c main_v11 : S16x8.Idx → EReal) (ix2 k j)
      = ∑ h : Fin 2048, w2b (m ((c : Thread nD τ).loc main_arg2)) h k * w1b (m ((c : Thread nD τ).loc main_arg1)) j h := by
  rw [V_M_term]
  refine (LibDotGeneralNN.dotGeneral_apply 16 2048 8 _ _ _ _ k j).trans (Finset.sum_congr rfl fun h _ => ?_)
  rw [transpose_ix2_apply, transpose_ix2_apply]
  rfl

end SignAE.Host

end
-- ==== Proof.KernelBlocks.lean ====
/-
  From blocks to arrays: the kernel's two result arrays are the specification's.

  The grid has 128 points; point `t` holds rows `1024·t … 1024·t + 1023` of the batch and of both results, and the whole of
  each weight operand (their block indices are zero at every point). What point `t` writes back to the codes is the body's
  block of codes of its loaded blocks, which is block `t` of the array of codes of the ARGUMENTS: the loaded blocks are the
  batch rows under the block and the binarized weights the host left. Likewise for the reconstruction, where the body's
  decode against `M = bᵀ·aᵀ` is the specification's reconstruction with the two weight matrices multiplied first. The 128
  blocks cover every row (row `r` is in block `r / 1024`), so each result array ends as the specification's array.
-/
import proofs.«161669_j85383949845057_2_alg».proof.Proof.ValueBlocks
import proofs.«161669_j85383949845057_2_alg».proof.Proof.KernelBody
import proofs.«161669_j85383949845057_2_alg».proof.Proof.KernelHost

noncomputable section

open scoped BigOperators

namespace SignAE.Blocks

open Cert.KernelIdeal Cert.KernelIdeal.Gen Idealize.ShloMosaic Idealize.ShloMosaic.TcCoe Idealize.SL.Sem
open Idealize.ShloMosaic.Pipeline (Dat)
open Idealize.ShloMosaic.ValueIdx SignAE

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the grid: the batch and both results move one block of rows per point, the
    weight operands stay at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row `p` of point `t`'s block is row `1024·t + p` of the batch. -/
def row (t : Fin cfg0.N) (p : Fin 1024) : Fin 131072 :=
  ⟨t.val * 1024 + p.val, by have ht : t.val < 128 := t.isLt; have hp := p.isLt; omega⟩

/-! ## The loaded blocks, read at an element -/

/-- The batch block: the rows under the block. -/
theorem blkX (c : Dev nD) (t : Fin cfg0.N) (p : Fin 1024) (j : Fin 8) :
    iblk m c 0 t (ix2 p j) = m ((c : Thread nD τ).loc main_arg0) (ix2 (row t p) j) := by
  obtain ⟨e0, e1, -⟩ := idx_facts t
  have e : ((cfg0.win 0).blk t).view.emb (ix2 p j) = ix2 (row t p) j := funext fun a => Fin.ext (by
    match a with
    | ⟨0, _⟩ => show win0_0.index t (0 : Fin 2) * 1024 + 1 * p.val = t.val * 1024 + p.val; omega
    | ⟨1, _⟩ => show win0_0.index t (1 : Fin 2) * 8 + 1 * j.val = j.val; omega)
  show V m c main_arg0 (((cfg0.win 0).blk t).view.emb (ix2 p j)) = _
  rw [e, V_main_arg0]

/-- The first-layer weights' block: the whole binarized matrix. -/
theorem blkW1 (c : Dev nD) (t : Fin cfg0.N) (j : Fin 8) (h : Fin 2048) :
    iblk m c 1 t (ix2 j h) = w1b (m ((c : Thread nD τ).loc main_arg1)) j h := by
  obtain ⟨-, -, e0, e1, -⟩ := idx_facts t
  have e : ((cfg0.win 1).blk t).view.emb (ix2 j h) = ix2 j h := funext fun a => Fin.ext (by
    match a with
    | ⟨0, _⟩ => show win0_1.index t (0 : Fin 2) * 8 + 1 * j.val = j.val; omega
    | ⟨1, _⟩ => show win0_1.index t (1 : Fin 2) * 2048 + 1 * h.val = h.val; omega)
  show (V m c main_v3 : S8x2048.Idx → EReal) (((cfg0.win 1).blk t).view.emb (ix2 j h)) = _
  rw [e, Host.V_w1]
  rfl

/-- The second-layer weights' block: the whole binarized matrix. -/
theorem blkW2 (c : Dev nD) (t : Fin cfg0.N) (h : Fin 2048) (k : Fin 16) :
    iblk m c 2 t (ix2 h k) = w2b (m ((c : Thread nD τ).loc main_arg2)) h k := by
  obtain ⟨-, -, -, -, e0, e1, -⟩ := idx_facts t
  have e : ((cfg0.win 2).blk t).view.emb (ix2 h k) = ix2 h k := funext fun a => Fin.ext (by
    match a with
    | ⟨0, _⟩ => show win0_2.index t (0 : Fin 2) * 2048 + 1 * h.val = h.val; omega
    | ⟨1, _⟩ => show win0_2.index t (1 : Fin 2) * 16 + 1 * k.val = k.val; omega)
  show (V m c main_v8 : S2048x16.Idx → EReal) (((cfg0.win 2).blk t).view.emb (ix2 h k)) = _
  rw [e, Host.V_w2]
  rfl

/-- The block of `M`: the whole product of the transposed binarized matrices. -/
theorem blkM (c : Dev nD) (t : Fin cfg0.N) (k : Fin 16) (j : Fin 8) :
    iblk m c 3 t (ix2 k j)
      = ∑ h : Fin 2048, w2b (m ((c : Thread nD τ).loc main_arg2)) h k * w1b (m ((c : Thread nD τ).loc main_arg1)) j h := by
  obtain ⟨-, -, -, -, -, -, e0, e1, -⟩ := idx_facts t
  have e : ((cfg0.win 3).blk t).view.emb (ix2 k j) = ix2 k j := funext fun a => Fin.ext (by
    match a with
    | ⟨0, _⟩ => show win0_3.index t (0 : Fin 2) * 16 + 1 * k.val = k.val; omega
    | ⟨1, _⟩ => show win0_3.index t (1 : Fin 2) * 8 + 1 * j.val = j.val; omega)
  show (V m c main_v11 : S16x8.Idx → EReal) (((cfg0.win 3).blk t).view.emb (ix2 k j)) = _
  rw [e, Host.V_M]

/-- The body's code of row `p` of point `t`'s blocks is the specification's code of batch row `1024·t + p`. -/
theorem code_at (c : Dev nD) (t : Fin cfg0.N) (p : Fin 1024) (k : Fin 16) :
    k0_pay6 (iblk m c 0 t) (k0_pay2 (iblk m c 1 t)) (k0_pay3 (iblk m c 2 t)) (k0_pay5 (iblk m c 0 t) (iblk m c 1 t)) (ix2 p k)
      = code (m ((c : Thread nD τ).loc main_arg0)) (m ((c : Thread nD τ).loc main_arg1)) (m ((c : Thread nD τ).loc main_arg2))
          (row t p) k := by
  refine (Body.code_block (iblk m c 0 t) (iblk m c 1 t) (iblk m c 2 t) p k).trans ?_
  unfold code hid
  refine congrArg ste (Finset.sum_congr rfl fun h _ => ?_)
  rw [blkW2]
  refine congrArg (fun y => ste y * _) (Finset.sum_congr rfl fun j _ => ?_)
  rw [blkX, blkW1]

/-! ## Output window 4: the codes -/

/-- An element of point `t`'s block of the codes sits at row `1024·t + p`. -/
theorem emb4 (t : Fin cfg0.N) (p : Fin 1024) (k : Fin 16) : ((cfg0.win 4).blk t).view.emb (ix2 p k) = ix2 (row t p) k := by
  obtain ⟨-, -, -, -, -, -, -, -, e0, e1, -⟩ := idx_facts t
  exact funext fun a => Fin.ext (by
    match a with
    | ⟨0, _⟩ => show win0_4.index t (0 : Fin 2) * 1024 + 1 * p.val = t.val * 1024 + p.val; omega
    | ⟨1, _⟩ => show win0_4.index t (1 : Fin 2) * 16 + 1 * k.val = k.val; omega)

/-- What point `t` writes back to the codes is block `t` of the specification's codes of the arguments. -/
theorem flushed4_eq (c : Dev nD) (t : Fin cfg0.N) :
    (dats m 0 c).flushed 4 t = ((cfg0.win 4).blk t).view.read (Elt Ideal)
      (codes (m ((c : Thread nD τ).loc main_arg0)) (m ((c : Thread nD τ).loc main_arg1)) (m ((c : Thread nD τ).loc main_arg2))) := by
  show (cfg0.win 4).cut (grid0.coords t) ((dats m 0 c).after 4 t) = _
  rw [after0_4]
  unfold out0_4
  rw [View.canon_unit_zero hz]
  simp only [View.ld_unit_zero (S := S1024x8) hz, View.ld_unit_zero (S := S8x2048) hz, View.ld_unit_zero (S := S2048x16) hz]
  funext y
  obtain ⟨p, k, rfl⟩ : ∃ (p : Fin 1024) (k : Fin 16), y = ix2 p k := ⟨y 0, y 1, eq_ix2 y⟩
  show k0_pay6 (iblk m c 0 t) (k0_pay2 (iblk m c 1 t)) (k0_pay3 (iblk m c 2 t)) (k0_pay5 (iblk m c 0 t) (iblk m c 1 t)) (ix2 p k)
    = codes _ _ _ (((cfg0.win 4).blk t).view.emb (ix2 p k))
  rw [emb4, codes_ix2]
  exact code_at m c t p k

/-- An index of the codes is in point `t`'s block iff each coordinate is in the block's range on its axis. -/
theorem mem_blk4 (t : Fin cfg0.N) (i : S131072x16.Idx) :
    i ∈ ((cfg0.win 4).blk t).view.set ↔ ∀ a : Fin 2, win0_4.index t a * S1024x16.size a ≤ (i a).val
      ∧ (i a).val < win0_4.index t a * S1024x16.size a + S1024x16.size a := by
  show i ∈ ((View.whole main_v12_0).slice (win0_4.rect t)).set ↔ _
  rw [View.set_slice_whole, Rect.mem_set_unit]
  exact Iff.rfl

/-- Every index of the codes is in some point's block: row `r` is in block `r / 1024`. -/
theorem cover4 (i : S131072x16.Idx) : ∃ t : Fin cfg0.N, (cfg0.win 4).flush t = true ∧ i ∈ ((cfg0.win 4).blk t).view.set := by
  have hi0 : (i 0).val < 131072 := (i 0).isLt
  have hi1 : (i 1).val < 16 := (i 1).isLt
  have ht : (i 0).val / 1024 < cfg0.N := by show (i 0).val / 1024 < 128; omega
  obtain ⟨-, -, -, -, -, -, -, -, e0, e1, -⟩ := idx_facts ⟨(i 0).val / 1024, ht⟩
  refine ⟨⟨(i 0).val / 1024, ht⟩, flush0_4 _, ?_⟩
  rw [mem_blk4]
  intro a
  match a with
  | ⟨0, _⟩ =>
    show win0_4.index ⟨(i 0).val / 1024, ht⟩ (0 : Fin 2) * 1024 ≤ (i 0).val
      ∧ (i 0).val < win0_4.index ⟨(i 0).val / 1024, ht⟩ (0 : Fin 2) * 1024 + 1024
    have e0' : win0_4.index ⟨(i 0).val / 1024, ht⟩ (0 : Fin 2) = (i 0).val / 1024 := e0
    omega
  | ⟨1, _⟩ =>
    show win0_4.index ⟨(i 0).val / 1024, ht⟩ (1 : Fin 2) * 16 ≤ (i 1).val
      ∧ (i 1).val < win0_4.index ⟨(i 0).val / 1024, ht⟩ (1 : Fin 2) * 16 + 16
    omega

/-- The array of codes after the run is the specification's. -/
theorem final4 (c : Dev nD) : (dats m 0 c).arrAt 4 cfg0.N
    = codes (m ((c : Thread nD τ).loc main_arg0)) (m ((c : Thread nD τ).loc main_arg1)) (m ((c : Thread nD τ).loc main_arg2)) :=
  (dats m 0 c).arrAt_eq_of_cover 4 _ (fun t _ => flushed4_eq m c t) cover4

/-! ## Output window 5: the reconstruction -/

/-- An element of point `t`'s block of the reconstruction sits at row `1024·t + p`. -/
theorem emb5 (t : Fin cfg0.N) (p : Fin 1024) (j : Fin 8) : ((cfg0.win 5).blk t).view.emb (ix2 p j) = ix2 (row t p) j := by
  obtain ⟨-, -, -, -, -, -, -, -, -, -, e0, e1⟩ := idx_facts t
  exact funext fun a => Fin.ext (by
    match a with
    | ⟨0, _⟩ => show win0_5.index t (0 : Fin 2) * 1024 + 1 * p.val = t.val * 1024 + p.val; omega
    | ⟨1, _⟩ => show win0_5.index t (1 : Fin 2) * 8 + 1 * j.val = j.val; omega)

/-- What point `t` writes back to the reconstruction is block `t` of the specification's reconstruction of the arguments:
    the body's decode against `M` is the reconstruction with the two weight matrices multiplied first. -/
theorem flushed5_eq (c : Dev nD) (t : Fin cfg0.N) :
    (dats m 0 c).flushed 5 t = ((cfg0.win 5).blk t).view.read (Elt Ideal)
      (recon (m ((c : Thread nD τ).loc main_arg0)) (m ((c : Thread nD τ).loc main_arg1)) (m ((c : Thread nD τ).loc main_arg2))) := by
  show (cfg0.win 5).cut (grid0.coords t) ((dats m 0 c).after 5 t) = _
  rw [after0_5]
  unfold out0_5
  rw [View.canon_unit_zero hz]
  simp only [View.ld_unit_zero (S := S1024x8) hz, View.ld_unit_zero (S := S8x2048) hz, View.ld_unit_zero (S := S2048x16) hz,
    View.ld_unit_zero (S := S16x8) hz]
  funext y
  obtain ⟨p, j, rfl⟩ : ∃ (p : Fin 1024) (j : Fin 8), y = ix2 p j := ⟨y 0, y 1, eq_ix2 y⟩
  show k0_pay1 (k0_pay4 (iblk m c 3 t)) (k0_pay6 (iblk m c 0 t) (k0_pay2 (iblk m c 1 t)) (k0_pay3 (iblk m c 2 t)) (k0_pay5 (iblk m c 0 t) (iblk m c 1 t)))
        (k0_pay9 (k0_pay4 (iblk m c 3 t)) (k0_pay6 (iblk m c 0 t) (k0_pay2 (iblk m c 1 t)) (k0_pay3 (iblk m c 2 t)) (k0_pay5 (iblk m c 0 t) (iblk m c 1 t)))
          (k0_pay7 (iblk m c 0 t) (k0_pay2 (iblk m c 1 t)) (k0_pay3 (iblk m c 2 t)) (k0_pay4 (iblk m c 3 t)) (k0_pay5 (iblk m c 0 t) (iblk m c 1 t)))
          (k0_pay8 (iblk m c 0 t) (k0_pay2 (iblk m c 1 t)) (k0_pay3 (iblk m c 2 t)) (k0_pay5 (iblk m c 0 t) (iblk m c 1 t))))
        (k0_pay10 (k0_pay6 (iblk m c 0 t) (k0_pay2 (iblk m c 1 t)) (k0_pay3 (iblk m c 2 t)) (k0_pay5 (iblk m c 0 t) (iblk m c 1 t)))) (ix2 p j)
    = recon _ _ _ (((cfg0.win 5).blk t).view.emb (ix2 p j))
  rw [emb5, recon_decoded]
  refine (Body.recon_block (iblk m c 0 t) (iblk m c 1 t) (iblk m c 2 t) (iblk m c 3 t) p j).trans
    (Finset.sum_congr rfl fun k _ => ?_)
  rw [code_at, blkM]

/-- An index of the reconstruction is in point `t`'s block iff each coordinate is in the block's range on its axis. -/
theorem mem_blk5 (t : Fin cfg0.N) (i : S131072x8.Idx) :
    i ∈ ((cfg0.win 5).blk t).view.set ↔ ∀ a : Fin 2, win0_5.index t a * S1024x8.size a ≤ (i a).val
      ∧ (i a).val < win0_5.index t a * S1024x8.size a + S1024x8.size a := by
  show i ∈ ((View.whole main_v12_1).slice (win0_5.rect t)).set ↔ _
  rw [View.set_slice_whole, Rect.mem_set_unit]
  exact Iff.rfl

/-- Every index of the reconstruction is in some point's block. -/
theorem cover5 (i : S131072x8.Idx) : ∃ t : Fin cfg0.N, (cfg0.win 5).flush t = true ∧ i ∈ ((cfg0.win 5).blk t).view.set := by
  have hi0 : (i 0).val < 131072 := (i 0).isLt
  have hi1 : (i 1).val < 8 := (i 1).isLt
  have ht : (i 0).val / 1024 < cfg0.N := by show (i 0).val / 1024 < 128; omega
  obtain ⟨-, -, -, -, -, -, -, -, -, -, e0, e1⟩ := idx_facts ⟨(i 0).val / 1024, ht⟩
  refine ⟨⟨(i 0).val / 1024, ht⟩, flush0_5 _, ?_⟩
  rw [mem_blk5]
  intro a
  match a with
  | ⟨0, _⟩ =>
    show win0_5.index ⟨(i 0).val / 1024, ht⟩ (0 : Fin 2) * 1024 ≤ (i 0).val
      ∧ (i 0).val < win0_5.index ⟨(i 0).val / 1024, ht⟩ (0 : Fin 2) * 1024 + 1024
    have e0' : win0_5.index ⟨(i 0).val / 1024, ht⟩ (0 : Fin 2) = (i 0).val / 1024 := e0
    omega
  | ⟨1, _⟩ =>
    show win0_5.index ⟨(i 0).val / 1024, ht⟩ (1 : Fin 2) * 8 ≤ (i 1).val
      ∧ (i 1).val < win0_5.index ⟨(i 0).val / 1024, ht⟩ (1 : Fin 2) * 8 + 8
    omega

/-- The reconstruction after the run is the specification's. -/
theorem final5 (c : Dev nD) : (dats m 0 c).arrAt 5 cfg0.N
    = recon (m ((c : Thread nD τ).loc main_arg0)) (m ((c : Thread nD τ).loc main_arg1)) (m ((c : Thread nD τ).loc main_arg2)) :=
  (dats m 0 c).arrAt_eq_of_cover 5 _ (fun t _ => flushed5_eq m c t) cover5

/-! ## The run, read -/

/-- The kernel's run with both result arrays at the specification's functions of the arguments, the arguments unchanged. -/
theorem run : θ_run defs (onTc (τ := τ) (main (F := Ideal))) ⟨m, fun _ => 0, ρ⟩ fun r => ∀ c : Dev nD,
      r.2.mem ((c : Thread nD τ).loc main_v12_0)
        = codes (m ((c : Thread nD τ).loc main_arg0)) (m ((c : Thread nD τ).loc main_arg1)) (m ((c : Thread nD τ).loc main_arg2))
      ∧ r.2.mem ((c : Thread nD τ).loc main_v12_1)
        = recon (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final4 m c), (h c).2.1.trans (final5 m c), (h c).2.2⟩)
    (Cert.KernelIdeal.ValueP.run_blocks m ρ)

end SignAE.Blocks

end
-- ==== Proof.lean ====
/-
  The certificate of a binarized autoencoder's forward pass: a Pallas kernel against its jnp reference, equal as extended
  reals under finite inputs (the finiteness is never needed).

  With `ste y` the sign of `y` with zero sent to one, a = ste W1 (8 × 2048) and b = ste W2 (2048 × 16), both programs compute,
  for every row p of the batch x (131072 × 8),
      hid[p, h]  = ste (∑ⱼ x[p, j] · a[j, h]),      code[p, k] = ste (∑ₕ hid[p, h] · b[h, k]),
  return the codes, and return a reconstruction of the row from its code. The reference decodes through the transposed
  layers in turn, x̂[p, j] = ∑ₕ (∑ₖ code[p, k] · b[h, k]) · a[j, h]; the kernel multiplies the two transposed weight matrices on
  the host first, M[k, j] = ∑ₕ b[h, k] · a[j, h], and decodes in one step, x̂[p, j] = ∑ₖ code[p, k] · M[k, j]. On the extended
  reals a product does not distribute over a sum in general, but every factor here is a value of `ste`, the real number −1
  or 1 whatever its argument, so both are the same finite real sum (Proof/LibSignAlgebra.lean `decode_assoc`, Proof/Spec.lean
  `recon_decoded`). The first layer, which the kernel computes by eight multiply-accumulate steps from zero instead of a
  matrix product, and the second, on the matrix unit into a zero accumulator, are the reference's sums term for term.

  The kernel's idealization replaces two reads of a sign bit (`1.0` carrying the sign of the pre-activation) by a comparison
  with zero; `preserves` is the two instances of that rule's statement.

  Modules: Proof/LibSignAlgebra.lean (scalar facts and the decoder's law), Proof/Spec.lean (the two result arrays as functions of
  the arguments), Proof/RefSpec.lean (the reference computes them), Proof/KernelBody.lean (the body's arithmetic at an
  element), Proof/KernelHost.lean (what the host leaves in the weight operands), Proof/KernelBlocks.lean (from the grid's
  blocks to the arrays; the kernel's run), over the generated frames and the generated run and reading of the reference.
-/
import proofs.«161669_j85383949845057_2_alg».proof.Defs
import proofs.«161669_j85383949845057_2_alg».proof.Proof.Gen.Kernel
import proofs.«161669_j85383949845057_2_alg».proof.Proof.Gen.Kernel.Frame
import proofs.«161669_j85383949845057_2_alg».proof.Proof.Gen.KernelIdeal
import proofs.«161669_j85383949845057_2_alg».proof.Proof.Gen.KernelIdeal.Frame
import proofs.«161669_j85383949845057_2_alg».proof.Proof.Gen.ReferenceIdeal
import proofs.«161669_j85383949845057_2_alg».proof.Proof.Gen.Pre_finite_inputs
import proofs.«161669_j85383949845057_2_alg».proof.Proof.Gen.ReferenceIdeal.Run
import proofs.«161669_j85383949845057_2_alg».proof.Proof.Gen.ReferenceIdeal.Read
import proofs.«161669_j85383949845057_2_alg».proof.Proof.RefSpec
import proofs.«161669_j85383949845057_2_alg».proof.Proof.KernelBlocks
import Idealize.ShloMosaic.Adequacy
import Idealize.ShloMosaic.Init

noncomputable section

namespace Cert.Proof

open Idealize.ShloMosaic Idealize.ShloMosaic.TcCoe Idealize.SL.Sem

/-- The kernel as printed runs and leaves its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments: its generated run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The two rewrites of the idealization, each the sign-bit rule's statement at its vector shape. -/
theorem preserves : Cert.preserves_Kernel_KernelIdeal :=
  ⟨IdealRules.sign_bit.statement _ _, IdealRules.sign_bit.statement _ _⟩

/-- Both idealized programs end with the codes and the reconstruction of the specification, of arguments that agree. -/
theorem algebraic : Cert.algebraic_KernelIdeal_ReferenceIdeal := by
  intro m ρ m' ρ' _ hagree
  refine ⟨_, _, SignAE.Blocks.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v17_eq, SignAE.Ref.codes_eq, (hagree c).1, (hagree c).2.1, (hagree c).2.2]
  · rw [(h c).2.1, Cert.ReferenceIdeal.Read.val_main_v21_eq, SignAE.Ref.recon_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
